-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S64x32768 : Shape := ⟨2, ![64, 32768]⟩
abbrev S1280x4096 : Shape := ⟨2, ![1280, 4096]⟩
abbrev S64x1280 : Shape := ⟨2, ![64, 1280]⟩
abbrev S32768x64 : Shape := ⟨2, ![32768, 64]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x32768, .f32⟩
  | .hbm, ⟨3, _⟩ => ⟨S32768x64, .f32⟩
  | .local _ .vmem, ⟨0, _⟩ => ⟨S1280x4096, .f32⟩
  | .local _ .vmem, ⟨1, _⟩ => ⟨S1280x4096, .f32⟩
  | .local _ .vmem, ⟨2, _⟩ => ⟨S64x4096, .f32⟩
  | .local _ .vmem, ⟨3, _⟩ => ⟨S64x1280, .f32⟩
  | .local _ .vmem, ⟨4, _⟩ => ⟨S64x1280, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  inb_S1280x4096_S1280x4096_0_0 : ∀ a, (![0, 0] : Fin 2 → Nat) a + S1280x4096.size a ≤ S1280x4096.size a
  h_S1280x4096 : 0 < S1280x4096.numel
  inb_S64x1280_S64x1280_0_0 : ∀ a, (![0, 0] : Fin 2 → Nat) a + S64x1280.size a ≤ S64x1280.size a
  h_S64x1280 : 0 < S64x1280.numel
  transposes_S64x32768_S32768x64_1_0 : S64x32768.Transposes [1, 0] S32768x64
  dot_S64x4096_S1280x4096_S64x1280_1_1_0_0_n_n_wf : DotDims.WF S64x4096 S1280x4096 S64x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1280x4096.size a < S32768x4096.size a
  hwx0_0 : ∀ i : grid0.Coords, EltTy.bits .f32 = 32 ∨ (Rect.unit (s := S32768x4096) (fun a => cc0_transform_0 i a * S1280x4096.size a) (fun a => (Pipeline.Clip.of (cc0_transform_0 i a) (S1280x4096.size a) (S32768x4096.size a)).extent (S1280x4096.size a)) fun a => Pipeline.Clip.inb (Pipeline.Clip.ok_of (hstart0_0 i a))).WholeWords (EltTy.packing .f32)
  hwxs0_0 : ∀ i : grid0.Coords, EltTy.bits .f32 = 32 ∨ (Rect.unit (s := S1280x4096) (fun _ => 0) (fun a => (Pipeline.Clip.of (cc0_transform_0 i a) (S1280x4096.size a) (S32768x4096.size a)).extent (S1280x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x1280.size a < S64x32768.size a
  hwx0_2 : ∀ i : grid0.Coords, EltTy.bits .f32 = 32 ∨ (Rect.unit (s := S64x32768) (fun a => cc0_transform_2 i a * S64x1280.size a) (fun a => (Pipeline.Clip.of (cc0_transform_2 i a) (S64x1280.size a) (S64x32768.size a)).extent (S64x1280.size a)) fun a => Pipeline.Clip.inb (Pipeline.Clip.ok_of (hstart0_2 i a))).WholeWords (EltTy.packing .f32)
  hwxs0_2 : ∀ i : grid0.Coords, EltTy.bits .f32 = 32 ∨ (Rect.unit (s := S64x1280) (fun _ => 0) (fun a => (Pipeline.Clip.of (cc0_transform_2 i a) (S64x1280.size a) (S64x32768.size a)).extent (S64x1280.size a)) fun a => (Nat.zero_add _).trans_le (Pipeline.Clip.extent_le (Pipeline.Clip.ok_of (hstart0_2 i a)))).WholeWords (EltTy.packing .f32)

variable [Facts₀]

def dot_S64x4096_S1280x4096_S64x1280_1_1_0_0_n_n : DotDims S64x4096 S1280x4096 S64x1280 where
  lhsContracting := [1]
  rhsContracting := [1]
  lhsNonContracting := [0]
  rhsNonContracting := [0]
  lhsBatch := []
  rhsBatch := []
  wf := dot_S64x4096_S1280x4096_S64x1280_1_1_0_0_n_n_wf

abbrev win0_0 : Pipeline.Window sig grid0 :=
  Pipeline.Window.ofSpecClip (Memref.whole main_arg0) S1280x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S64x1280.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x4096_S4096x64_1_0 : S64x4096.Transposes [1, 0] S4096x64
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.BitsTile.lean ====
/-
  One grid point of the gate GEMM, as a Hoare triple. The body loads the whole weight tile W (64 × 4096) and the whole
  token tile X (1280 × 4096) from their staging buffers, forms the product tile W · Xᵀ (64 × 1280: entry (e, r) is the
  inner product of weight row e with token row r) into a zero accumulator, and stores it over the whole result tile.
  So, whatever the three buffers hold beforehand, afterwards the two input tiles are unchanged and the result tile
  holds the product tile of what the inputs hold. This is the same statement for the program whose floats are machine
  words: the triple only moves whole tiles and names the product by the payload, so it holds for every float instance.
-/
import proofs.«140568_g15161234555173_cont_week2b_154_25_alg».proof.Proof.Gen.Kernel.Frame
import proofs.«140568_g15161234555173_cont_week2b_154_25_alg».proof.Proof.Gen.Kernel.Skeleton
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its tile. -/
theorem origin : (![0, 0] : Fin 2 → Nat) = fun _ => 0 := funext fun a => by fin_cases a <;> rfl

set_option maxHeartbeats 1000000 in
/-- The body on whole staging memrefs: the token tile at X and the weight tile at W stay as they are, and the result
    tile, whatever it held, ends at the product tile of W and X (the one store covers the tile, and the two loads read
    the whole tiles). -/
theorem product_tile (c : Dev nD) (E : Set ℕ) (i : grid0.Coords)
    (arg1 : Memref sig .tc .vmem S1280x4096 .f32) (harg1 : arg1.IsWhole)
    (arg2 : Memref sig .tc .vmem S64x4096 .f32) (harg2 : arg2.IsWhole)
    (arg3 : Memref sig .tc .vmem S64x1280 .f32) (harg3 : arg3.IsWhole)
    (X : Vec F S1280x4096 .f32) (W : Vec F S64x4096 .f32) (K : PUnit → sProp 𝕄) :
    iprop(owns (c : Thread nD τ) arg1 fullShare X ∗ owns (c : Thread nD τ) arg2 fullShare W ∗ (∃ d, owns (c : Thread nD τ) arg3 fullShare d)
        ∗ (iprop(owns (c : Thread nD τ) arg1 fullShare X ∗ owns (c : Thread nD τ) arg2 fullShare W
            ∗ owns (c : Thread nD τ) arg3 fullShare (k0_pay1 W X)) -∗ K ⟨⟩))
      ⊢ wp frame (wpE (defs₀ (F := F)) Variants.none c none) E (cc0__gate_gemm_kernel i arg1 harg1 arg2 harg2 arg3 harg3) K := by
  simp only [cc0__gate_gemm_kernel_eq_skeleton]; unfold cc0__gate_gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero origin inb_S64x1280_S64x1280_0_0 y⟩),
    View.canon_unit_zero origin, View.readAt_eq_ld, View.readAt_eq_ld, View.ld_unit_zero origin, View.ld_unit_zero origin]

end Cert.Kernel.Tile

end
-- ==== Proof.BitsData.lean ====
/-
  What the staging buffers hold around each grid point of the gate GEMM. Grid point t streams token rows
  1280·t ‥ 1280·t + 1279 through the token tile, keeps the whole weight matrix in the weight tile, and leaves the product
  tile for result columns 1280·t ‥ 1280·t + 1279. There are 26 points for 32768 tokens, so at the last point only the
  first 768 rows of the token tile (and the first 768 columns of the result tile) lie inside the arrays: the fetch fills
  those rows and leaves the others at contents nothing names, and the write-back moves only those columns.
  The data below name, after the body at point t: the token tile at the fetched rows with the unnamed rows set to zero,
  the weight tile at the weight matrix, the result tile at the product tile of these two. (For the program whose floats
  are machine words; the frame built on these data keeps the two input entries and forgets the result entry.)
-/
import proofs.«140568_g15161234555173_cont_week2b_154_25_alg».proof.Proof.BitsTile
import Idealize.ShloMosaic.Lib.Pipeline.Frame

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The token tile at point t with the rows past the array's end set to zero: the fetched rows are the array's. -/
def tokens (c : Dev nD) (t : Fin cfg0.N) : S1280x4096.Idx → Elt F .f32 :=
  win0_0.fill (grid0.coords t) (fun _ => Scalar.ofBits .f32 0#32) (iblk m c 0 t)

/-- The proof data of the one pipeline on core c: the arrays as the region finds them; after the body at point t the
    token tile at tokens, the weight tile at the weight matrix, the result tile at their product tile. -/
def dats (_ : Fin 1) (c : Dev nD) : Dat τ (Elt F) Unit ℕ (UR sig nD τ) ℕ cfg0 c where
  A w := V m c (Pipeline.arrRef spec0 w)
  after w t := match w with
    | ⟨0, _⟩ => tokens m c t
    | ⟨1, _⟩ => iblk m c 1 t
    | ⟨2, _⟩ => k0_pay1 (iblk m c 1 t) (tokens m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tokens (c : Dev nD) (t : Fin cfg0.N) : (dats m 0 c).after 0 t = tokens m c t := by dsimp only [dats]
theorem after_weights (c : Dev nD) (t : Fin cfg0.N) : (dats m 0 c).after 1 t = iblk m c 1 t := by dsimp only [dats]
theorem after_product (c : Dev nD) (t : Fin cfg0.N) :
    (dats m 0 c).after 2 t = k0_pay1 (iblk m c 1 t) (tokens m c t) := by dsimp only [dats]

/-- The token tile as the body finds it: fetched at every point, so the array's rows where the fetch lands and whatever
    the buffer held (d) elsewhere. -/
theorem before_tokens (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]

/-- The weight tile as the body finds it: the weight matrix at every point (fetched once, never overwritten). -/
theorem before_weights (c : Dev nD) (t : Fin cfg0.N) (d) : (dats m 0 c).before 1 t d = iblk m c 1 t :=
  before0_1_of m (dats m 0 c) (A_eq m c 1) (after_weights m c) t d

/-- The result tile as the body finds it: anything (it is written back after every point). -/
theorem before_product (c : Dev nD) (t : Fin cfg0.N) (d) : (dats m 0 c).before 2 t d = d :=
  Dat.before_out_reset _ 2 rfl t (by
    by_cases h : t.val = 0
    · exact .inl h
    · exact .inr ⟨h, flush0_2 _⟩) d

end Cert.Kernel.Stream

end
-- ==== Proof.BitsFrame.lean ====
/-
  The frame of the gate GEMM whose floats are machine words: running the whole program leaves the two argument arrays,
  the tokens and the weight matrix, as they were.

  Why the result is forgotten. A grid point's token tile has 1280 rows, and at the last of the 26 points only the first
  768 lie inside the token array: the fetch fills those and the other 512 rows keep words nothing names. The body
  multiplies the whole tile. For exact reals each result column depends on its own token row alone, so the columns that
  are written back could be named; for machine words the product is one opaque function of the whole tile, and no
  statement of the columns inside the array follows from the rows inside the array. The frame needs nothing of the
  result, so the proof data below are read with the result window forgotten: the body is handed that tile at any
  contents and may leave it at any contents, and the run concludes only that the result array holds something.
  The two input tiles are still named exactly (Data), which is what keeps the input arrays fixed: an input window is
  only ever read, so its array ends as it began.
-/
import proofs.«140568_g15161234555173_cont_week2b_154_25_alg».proof.Proof.BitsData
import Idealize.ShloMosaic.Lib.Pipeline.FrameSuffix
import Idealize.ShloMosaic.Lib.Pipeline.Kit

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is said of: the result window (2) alone. -/
def forgets : Fin 3 → Bool := fun w => w.val == 2

/-- The token window and the weight window are kept, -/
theorem forgets_tokens : forgets 0 = false := rfl
theorem forgets_weights : forgets 1 = false := rfl
/-- the result window is forgotten. -/
theorem forgets_product : forgets 2 = true := rfl

/-! ## The body at one grid point -/

/-- The body's obligation at every grid point t, the result window forgotten.
    The body is handed the token tile just fetched (the array's rows where the fetch lands, words d₀ nothing names on
    the rows past the array's end), the weight tile at the weight matrix, and the result tile at any contents.
    It hands back the token tile untouched, which on the rows inside the array is the block of the array; the weight
    tile untouched; and the result tile at its product, of which nothing is said. -/
theorem body_obligation (c : Dev nD) :
    BodyObligationLoose (dats (F := F) m 0 c) (defs₀ (F := F)) Variants.none () Set.univ forgets := fun t => by
  -- the three windows one by one; no point is idle, windows 0 and 2 are stated on the rows (columns) inside the array
  rw [bigSep_W0, bigSep_W0]
  simp only [forgets_tokens, forgets_weights, forgets_product]
  -- the invariant and the debt (nothing owed) are the same before and after the point
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X, H2⟩⟩
  -- what the two input tiles hold on entry
  rw [before_tokens m c t d0, before_weights m c t d1]
  -- the body's triple on these tiles: inputs unchanged, the result tile at the product
  iapply (Tile.product_tile (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists X; iexact H2
  iintro ⟨H0, H1, H2⟩
  isplitl [HΦ]; · iexact HΦ
  isplitl [Ho]; · iexact Ho
  isplitl [H0]
  · -- the token tile still holds the fetched block filled out with d₀: cutting the named tile (the block filled out
    -- with zeros) to the rows inside the array gives the block back
    have hcut : win0_0.cut (grid0.coords t) (tokens m c t) = iblk m c 0 t := win0_0.cut_fill _ _ _
    iexists d0
    rw [after_tokens]
    change _ ⊢ owns (c : Thread nD τ) (win0_0.stage (cfg0.slots t 0)) fullShare
      (win0_0.fill (grid0.coords t) d0 (win0_0.cut (grid0.coords t) (tokens m c t)))
    rw [hcut]   -- what remains is the hypothesis itself, closed by reflexivity
  isplitl [H1]
  · rw [after_weights]; iexact H1
  · iexists _; iexact H2

/-! ## The run and the frame -/

/-- What the one host line after the region writes: the transposed result, and nothing else. -/
def written : Finset (Ref sig .tc) := {main_v1}

/-- The host line after the region (the transpose of the result into main_v1) writes main_v1 only. -/
theorem sfx_writes : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl
  -- the line is a unary operation into main_v1: its written set is that one reference
  rw [StableHlo.unary_writes, Finset.mem_singleton] at hb
  exact Finset.mem_singleton.mpr (Proc.devRef_injective _ hb)

set_option backward.isDefEq.respectTransparency.types false in
/-- From any memory with zero counters, every weakly fair execution of the program terminates, and in every final
    state each array of the pipeline holds some contents it may hold after every write-back — for the two inputs
    that is what they held at entry; for the forgotten result, anything — and every other buffer outside written
    holds what it held when the region was entered. -/
theorem run_main : θ_run defs (onTc (τ := τ) (main (F := F))) (s₀ m ρ)
    (Pipeline.RDat.FramePostR (cfgs 0) (fun c => (dats m 0 c).toRForget forgets) written
      (fun c b => V0 m c (Proc.devRef .tc b))) :=
  Pipeline.RDat.θ_run_frame_around_T cfgs (0 : Fin 1) launch0 defs₀ Variants.none
    (fun c => (dats m 0 c).toRForget forgets) written m ρ main
    (hbody := fun c => (body_obligation m c).toRForget)
    (hshare := fun c => ((dats m 0 c).toRForget forgets).share_full fun _ => rfl)
    (howed := fun _ _ => rfl) (V₀ := V0 m) (opss := [hostOps1])
    (hsub := sfx_sub) (hfresh := sfx_fresh) (hkeep := sfx_keeps) (hT := sfx_writes)
    (hmain := hmain m Variants.none) (hA := A_eq m) (hΦ := fun _ _ => rfl)

/-- An input window's array ends as the region found it. Such an array is never written back, so the contents it may
    hold after the write-backs of all points are exactly its entry contents; forgetting the result window changes
    nothing of the entry contents, and the proof data name them as the array when the region is entered. -/
theorem input_kept (c : Dev nD) (w : Fin cfg0.W) (hin : (cfg0.win w).isOut = false)
    (X : Buf (Elt F) ((cfg0.win w).arr.view.loc (c.tc : Thread nD τ)))
    (h : ((dats m 0 c).toRForget forgets).ArrAt w cfg0.N X) : X = V m c (Pipeline.arrRef spec0 w) := by
  rw [Pipeline.RDat.ArrAt_in _ w hin] at h
  rw [h, Dat.toRForget_A, A_eq]

/-- THE FRAME: the program leaves both argument arrays as they were. Each is the array of an input window (tokens:
    window 0, weights: window 1), so it ends as the region found it; and nothing runs before the region, so that is
    the initial memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(input_kept m c 0 rfl _ ((h c).1 0)).trans (V_main_arg0 m c),
     (input_kept m c 1 rfl _ ((h c).1 1)).trans (V_main_arg1 m c)⟩) (run_main m ρ)

end Cert.Kernel.Stream

end
-- ==== Proof.Tile.lean ====
/-
  One grid point of the gate GEMM, as a Hoare triple. The body loads the whole weight tile W (64 × 4096) and the whole
  token tile X (1280 × 4096) from their staging buffers, forms the product tile W · Xᵀ (64 × 1280: entry (e, r) is the
  inner product of weight row e with token row r) into a zero accumulator, and stores it over the whole result tile.
  So, whatever the three buffers hold beforehand, afterwards the two input tiles are unchanged and the result tile
  holds the product tile of what the inputs hold. Stated for every float instance.
-/
import proofs.«140568_g15161234555173_cont_week2b_154_25_alg».proof.Proof.Gen.KernelIdeal.Frame
import proofs.«140568_g15161234555173_cont_week2b_154_25_alg».proof.Proof.Gen.KernelIdeal.Skeleton
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its tile. -/
theorem origin : (![0, 0] : Fin 2 → Nat) = fun _ => 0 := funext fun a => by fin_cases a <;> rfl

set_option maxHeartbeats 1000000 in
/-- The body on whole staging memrefs: the token tile at X and the weight tile at W stay as they are, and the result
    tile, whatever it held, ends at the product tile of W and X (the one store covers the tile, and the two loads read
    the whole tiles). -/
theorem product_tile (c : Dev nD) (E : Set ℕ) (i : grid0.Coords)
    (arg1 : Memref sig .tc .vmem S1280x4096 .f32) (harg1 : arg1.IsWhole)
    (arg2 : Memref sig .tc .vmem S64x4096 .f32) (harg2 : arg2.IsWhole)
    (arg3 : Memref sig .tc .vmem S64x1280 .f32) (harg3 : arg3.IsWhole)
    (X : Vec F S1280x4096 .f32) (W : Vec F S64x4096 .f32) (K : PUnit → sProp 𝕄) :
    iprop(owns (c : Thread nD τ) arg1 fullShare X ∗ owns (c : Thread nD τ) arg2 fullShare W ∗ (∃ d, owns (c : Thread nD τ) arg3 fullShare d)
        ∗ (iprop(owns (c : Thread nD τ) arg1 fullShare X ∗ owns (c : Thread nD τ) arg2 fullShare W
            ∗ owns (c : Thread nD τ) arg3 fullShare (k0_pay1 W X)) -∗ K ⟨⟩))
      ⊢ wp frame (wpE (defs₀ (F := F)) Variants.none c none) E (cc0__gate_gemm_kernel i arg1 harg1 arg2 harg2 arg3 harg3) K := by
  simp only [cc0__gate_gemm_kernel_eq_skeleton]; unfold cc0__gate_gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero origin inb_S64x1280_S64x1280_0_0 y⟩),
    View.canon_unit_zero origin, View.readAt_eq_ld, View.readAt_eq_ld, View.ld_unit_zero origin, View.ld_unit_zero origin]

end Cert.KernelIdeal.Tile

end
-- ==== Proof.Data.lean ====
/-
  What the staging buffers hold around each grid point of the gate GEMM. Grid point t streams token rows
  1280·t ‥ 1280·t + 1279 through the token tile, keeps the whole weight matrix in the weight tile, and leaves the product
  tile for result columns 1280·t ‥ 1280·t + 1279. There are 26 points for 32768 tokens, so at the last point only the
  first 768 rows of the token tile (and the first 768 columns of the result tile) lie inside the arrays: the fetch fills
  those rows and leaves the others at contents nothing names, and the write-back moves only those columns.
  The data below name, after the body at point t: the token tile at the fetched rows with the unnamed rows set to zero,
  the weight tile at the weight matrix, the result tile at the product tile of these two.
-/
import proofs.«140568_g15161234555173_cont_week2b_154_25_alg».proof.Proof.Tile
import Idealize.ShloMosaic.Lib.Pipeline.Frame

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The token tile at point t with the rows past the array's end set to zero: the fetched rows are the array's. -/
def tokens (c : Dev nD) (t : Fin cfg0.N) : S1280x4096.Idx → Elt F .f32 :=
  win0_0.fill (grid0.coords t) (fun _ => Scalar.ofBits .f32 0#32) (iblk m c 0 t)

/-- The proof data of the one pipeline on core c: the arrays as the region finds them; after the body at point t the
    token tile at tokens, the weight tile at the weight matrix, the result tile at their product tile. -/
def dats (_ : Fin 1) (c : Dev nD) : Dat τ (Elt F) Unit ℕ (UR sig nD τ) ℕ cfg0 c where
  A w := V m c (Pipeline.arrRef spec0 w)
  after w t := match w with
    | ⟨0, _⟩ => tokens m c t
    | ⟨1, _⟩ => iblk m c 1 t
    | ⟨2, _⟩ => k0_pay1 (iblk m c 1 t) (tokens m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tokens (c : Dev nD) (t : Fin cfg0.N) : (dats m 0 c).after 0 t = tokens m c t := by dsimp only [dats]
theorem after_weights (c : Dev nD) (t : Fin cfg0.N) : (dats m 0 c).after 1 t = iblk m c 1 t := by dsimp only [dats]
theorem after_product (c : Dev nD) (t : Fin cfg0.N) :
    (dats m 0 c).after 2 t = k0_pay1 (iblk m c 1 t) (tokens m c t) := by dsimp only [dats]

/-- The token tile as the body finds it: fetched at every point, so the array's rows where the fetch lands and whatever
    the buffer held (d) elsewhere. -/
theorem before_tokens (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]

/-- The weight tile as the body finds it: the weight matrix at every point (fetched once, never overwritten). -/
theorem before_weights (c : Dev nD) (t : Fin cfg0.N) (d) : (dats m 0 c).before 1 t d = iblk m c 1 t :=
  before0_1_of m (dats m 0 c) (A_eq m c 1) (after_weights m c) t d

/-- The result tile as the body finds it: anything (it is written back after every point). -/
theorem before_product (c : Dev nD) (t : Fin cfg0.N) (d) : (dats m 0 c).before 2 t d = d :=
  Dat.before_out_reset _ 2 rfl t (by
    by_cases h : t.val = 0
    · exact .inl h
    · exact .inr ⟨h, flush0_2 _⟩) d

end Cert.KernelIdeal.Stream

end
-- ==== Proof.Rows.lean ====
/-
  The product tile at an index, over the extended reals. With W the 64 × 4096 weight tile and X the 1280 × 4096 token
  tile, entry (e, r) of the product tile is the inner product  ∑ₖ W[e, k] · X[r, k]  (the accumulator is zero). In
  particular it reads token row r only: two token tiles that agree on row r give the same entry (e, r).
-/
import proofs.«140568_g15161234555173_cont_week2b_154_25_alg».proof.Proof.Gen.KernelIdeal.Skeleton
import Idealize.ShloMosaic.Lib.ValueIdx
import Idealize.ShloMosaic.PureOps.Ideal.Laws

noncomputable section

namespace Cert.KernelIdeal.Rows

open Cert.KernelIdeal Cert.KernelIdeal.Gen
open Idealize.ShloMosaic Idealize.ShloMosaic.ValueIdx

/-- The weight operand's row is the entry's row, -/
theorem lhs_row (i : S64x1280.Idx) (q : dot_S64x4096_S1280x4096_S64x1280_1_1_0_0_n_n.contr.Idx) : (dot_S64x4096_S1280x4096_S64x1280_1_1_0_0_n_n.lhsIdx i q 0).val = (i 0).val := by
  unfold DotDims.lhsIdx
  rw [dif_neg (show ¬(0 : Fin S64x4096.rank) ∈ dot_S64x4096_S1280x4096_S64x1280_1_1_0_0_n_n.lhsBatch by decide), dif_pos (show (0 : Fin S64x4096.rank) ∈ dot_S64x4096_S1280x4096_S64x1280_1_1_0_0_n_n.lhsNonContracting by decide)]
  rfl
/-- its column the summation index; -/
theorem lhs_col (i : S64x1280.Idx) (q : dot_S64x4096_S1280x4096_S64x1280_1_1_0_0_n_n.contr.Idx) : (dot_S64x4096_S1280x4096_S64x1280_1_1_0_0_n_n.lhsIdx i q 1).val = (q ⟨0, by decide⟩).val :=
  dot_S64x4096_S1280x4096_S64x1280_1_1_0_0_n_n.lhsIdx_val_of_single rfl i q
/-- the token operand's row is the entry's column, -/
theorem rhs_row (i : S64x1280.Idx) (q : dot_S64x4096_S1280x4096_S64x1280_1_1_0_0_n_n.contr.Idx) : (dot_S64x4096_S1280x4096_S64x1280_1_1_0_0_n_n.rhsIdx i q 0).val = (i 1).val := by
  unfold DotDims.rhsIdx
  rw [dif_neg (show ¬(0 : Fin S1280x4096.rank) ∈ dot_S64x4096_S1280x4096_S64x1280_1_1_0_0_n_n.rhsBatch by decide), dif_pos (show (0 : Fin S1280x4096.rank) ∈ dot_S64x4096_S1280x4096_S64x1280_1_1_0_0_n_n.rhsNonContracting by decide)]
  rfl
/-- its column the summation index. -/
theorem rhs_col (i : S64x1280.Idx) (q : dot_S64x4096_S1280x4096_S64x1280_1_1_0_0_n_n.contr.Idx) : (dot_S64x4096_S1280x4096_S64x1280_1_1_0_0_n_n.rhsIdx i q 1).val = (q ⟨0, by decide⟩).val :=
  dot_S64x4096_S1280x4096_S64x1280_1_1_0_0_n_n.rhsIdx_val_of_single rfl i q

/-- Entry (e, r) of the product tile is ∑ₖ W[e, k] · X[r, k]. -/
theorem product_apply (W : FVec Ideal S64x4096 .f32) (X : FVec Ideal S1280x4096 .f32) (e : Fin 64) (r : Fin 1280) :
    k0_pay1 (F := Ideal) W X (ix2 e r) = ∑ k : Fin 4096, W (ix2 e k) * X (ix2 r k) := by
  unfold k0_pay1
  simp only [matmul]
  rw [Ideal.matmul_constant_zero_apply, ← Equiv.sum_comp (contrEquiv1 dot_S64x4096_S1280x4096_S64x1280_1_1_0_0_n_n 4096 rfl rfl).symm]
  refine Finset.sum_congr rfl fun k _ => ?_
  have hk := contrEquiv1_symm_val dot_S64x4096_S1280x4096_S64x1280_1_1_0_0_n_n 4096 rfl rfl k
  have el : dot_S64x4096_S1280x4096_S64x1280_1_1_0_0_n_n.lhsIdx (ix2 e r) ((contrEquiv1 dot_S64x4096_S1280x4096_S64x1280_1_1_0_0_n_n 4096 rfl rfl).symm k) = ix2 e k := funext fun a => Fin.ext (by
    match a with
    | ⟨0, _⟩ => exact lhs_row _ _
    | ⟨1, _⟩ => exact (lhs_col _ _).trans hk)
  have er : dot_S64x4096_S1280x4096_S64x1280_1_1_0_0_n_n.rhsIdx (ix2 e r) ((contrEquiv1 dot_S64x4096_S1280x4096_S64x1280_1_1_0_0_n_n 4096 rfl rfl).symm k) = ix2 r k := funext fun a => Fin.ext (by
    match a with
    | ⟨0, _⟩ => exact rhs_row _ _
    | ⟨1, _⟩ => exact (rhs_col _ _).trans hk)
  rw [el, er]

/-- So the entry reads token row r only. -/
theorem product_congr_row (W : FVec Ideal S64x4096 .f32) (X X' : FVec Ideal S1280x4096 .f32) (e : Fin 64) (r : Fin 1280)
    (h : ∀ k : Fin 4096, X (ix2 r k) = X' (ix2 r k)) :
    k0_pay1 (F := Ideal) W X (ix2 e r) = k0_pay1 (F := Ideal) W X' (ix2 e r) := by
  rw [product_apply, product_apply]
  exact Finset.sum_congr rfl fun k _ => by rw [h k]

end Cert.KernelIdeal.Rows

end
-- ==== Proof.Cut.lean ====
/-
  The two clipped tiles of the gate GEMM are cut alike, and the product tile respects the cut. The token tile's rows and
  the result tile's columns both run over the 32768 tokens in steps of 1280, so at the last grid point both keep their
  first 768. Entry (e, r) of a product tile reads token row r only; hence two token tiles that agree on the rows the fetch
  fills have product tiles that agree on the columns the write-back moves.
-/
import proofs.«140568_g15161234555173_cont_week2b_154_25_alg».proof.Proof.Rows
import Idealize.ShloMosaic.Lib.Pipeline

noncomputable section

namespace Cert.KernelIdeal.Stream

open Cert.KernelIdeal Cert.KernelIdeal.Gen
open Idealize.ShloMosaic Idealize.ShloMosaic.ValueIdx

/-- The token tile's rows and the result tile's columns are cut alike (both at the end of the 32768 tokens), -/
theorem rows_cut (i : grid0.Coords) : win0_0.xsize i 0 = win0_2.xsize i 1 := rfl
/-- and the token tile's 4096 columns are never cut. -/
theorem cols_whole (i : grid0.Coords) : win0_0.xsize i 1 = 4096 := rfl

/-- Contents of a tile that agree on the part a transfer moves agree at every index of that part. -/
theorem eq_of_cut_eq {sig : RefSig} {G : Pipeline.Grid} (w : Pipeline.Window sig G) {α : Type} (i : G.Coords)
    {X X' : w.block.Idx → α} (h : w.cut i X = w.cut i X') (y : w.block.Idx) (hy : ∀ a, (y a).val < w.xsize i a) :
    X y = X' y :=
  congrFun h (fun a => ⟨(y a).val, hy a⟩)

/-- Token tiles that agree on the fetched rows have product tiles that agree on the columns written back. -/
theorem product_cut (i : grid0.Coords) (W : FVec Ideal S64x4096 .f32) (X X' : FVec Ideal S1280x4096 .f32)
    (h : win0_0.cut i X = win0_0.cut i X') :
    win0_2.cut i (k0_pay1 (F := Ideal) W X) = win0_2.cut i (k0_pay1 (F := Ideal) W X') := by
  funext j
  have h0 : (j 0).val < 64 := lt_of_lt_of_le (j 0).isLt (win0_2.xsize_le i 0)
  have h1 : (j 1).val < 1280 := lt_of_lt_of_le (j 1).isLt (win0_2.xsize_le i 1)
  have hj : win0_2.xinj i j = ix2 (⟨(j 0).val, h0⟩ : Fin 64) (⟨(j 1).val, h1⟩ : Fin 1280) :=
    funext fun a => by match a with | ⟨0, _⟩ => rfl | ⟨1, _⟩ => rfl
  show k0_pay1 (F := Ideal) W X (win0_2.xinj i j) = k0_pay1 (F := Ideal) W X' (win0_2.xinj i j)
  rw [hj]
  refine Rows.product_congr_row W X X' _ _ fun k => ?_
  -- token row (j 1) is among the rows the fetch filled, and no column is cut
  have hr : (j 1).val < win0_0.xsize i 0 := lt_of_lt_of_eq (j 1).isLt (rows_cut i).symm
  have hk : k.val < win0_0.xsize i 1 := lt_of_lt_of_eq k.isLt (cols_whole i).symm
  exact eq_of_cut_eq win0_0 i h (ix2 (⟨(j 1).val, h1⟩ : Fin 1280) k) fun a => by
    match a with
    | ⟨0, _⟩ => exact hr
    | ⟨1, _⟩ => exact hk

end Cert.KernelIdeal.Stream

end
-- ==== Proof.Obligation.lean ====
/-
  Every grid point of the gate GEMM keeps the proof data, over the extended reals. At point t the body finds the token
  tile freshly fetched (the array's rows where the fetch lands, unnamed contents d on the rows past the array's end), the
  weight tile at the weight matrix, and anything in the result tile; it leaves the two inputs as found and the result at
  the product tile. Entry (e, r) of a product tile reads token row r only, and a result column r that the write-back
  moves (r below the cut) is a token row the fetch filled (the two tiles are cut alike), so on the columns that are moved
  the result does not depend on d: it is the product tile of the weight matrix and the fetched rows.
-/
import proofs.«140568_g15161234555173_cont_week2b_154_25_alg».proof.Proof.Data
import proofs.«140568_g15161234555173_cont_week2b_154_25_alg».proof.Proof.Cut

set_option maxRecDepth 16384

noncomputable section

namespace Cert.KernelIdeal.Stream

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two cut tiles stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_tokens, after_weights, after_product]
  iintro ⟨HΦ, Ho, ⟨%d0, H0⟩, ⟨%d1, H1⟩, ⟨%d2, H2⟩⟩
  rw [before_tokens m c t d0, before_weights m c t d1, before_product m c t d2]
  iapply (Tile.product_tile (F := Ideal) c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold tokens
    rw [win0_0.cut_fill]
    iexact H0
  isplitl [H1]; · iexact H1
  · iexists k0_pay1 (F := Ideal) (iblk m c 1 t) (win0_0.fill (grid0.coords t) d0 (iblk m c 0 t))
    rw [win0_2.fill_congr_cut (grid0.coords t) (product_cut (grid0.coords t) (iblk m c 1 t) _ _ (by
      unfold tokens; rw [win0_0.cut_fill, win0_0.cut_fill]))]
    iexact H2

/-- The body obligation, at every point. -/
theorem body_obligation (c : Dev nD) :
    BodyObligationLoose (dats (F := Ideal) m 0 c) (defs₀ (F := Ideal)) Variants.none () Set.univ := fun t => by
  rw [bigSep_W0, bigSep_W0]
  exact sound_body m c t

end Cert.KernelIdeal.Stream

end
-- ==== Proof.Spec.lean ====
/-
  The gate logits as one function of the two argument arrays, over the extended reals. With x the 32768 × 4096 token
  matrix and w the 64 × 4096 expert weights, the logit of token t for expert e is the inner product
      logits x w (t, e) = ∑ₖ x[t, k] · w[e, k].
  The kernel computes the transposed table, experts by tokens, with the factors in the other order,
      logitsT x w (e, t) = ∑ₖ w[e, k] · x[t, k],
  and the two agree entry by entry because multiplication of extended reals is commutative (no finiteness is needed:
  the sums run over the same index in the same order).
-/
import Idealize.ShloMosaic.PureOps.Ideal
import Idealize.ShloMosaic.Lib.ValueIdx

noncomputable section

open scoped BigOperators

namespace Cert.GateLogits

open Idealize.ShloMosaic Idealize.ShloMosaic.ValueIdx

/-- Token by expert: ∑ₖ x[t, k] · w[e, k]. -/
def logits (x : (⟨2, ![32768, 4096]⟩ : Shape).Idx → EReal) (w : (⟨2, ![64, 4096]⟩ : Shape).Idx → EReal) :
    (⟨2, ![32768, 64]⟩ : Shape).Idx → EReal :=
  fun i => ∑ k : Fin 4096, x (ix2 (i 0) k) * w (ix2 (i 1) k)

/-- Expert by token, the factors in the kernel's order: ∑ₖ w[e, k] · x[t, k]. -/
def logitsT (x : (⟨2, ![32768, 4096]⟩ : Shape).Idx → EReal) (w : (⟨2, ![64, 4096]⟩ : Shape).Idx → EReal) :
    (⟨2, ![64, 32768]⟩ : Shape).Idx → EReal :=
  fun i => ∑ k : Fin 4096, w (ix2 (i 0) k) * x (ix2 (i 1) k)

theorem logitsT_apply (x : (⟨2, ![32768, 4096]⟩ : Shape).Idx → EReal) (w : (⟨2, ![64, 4096]⟩ : Shape).Idx → EReal)
    (e : Fin 64) (t : Fin 32768) : logitsT x w (ix2 e t) = ∑ k : Fin 4096, w (ix2 e k) * x (ix2 t k) := rfl

/-- The transposed table read at the swapped index is the table: commutativity of the product, term by term. -/
theorem logitsT_swap (x : (⟨2, ![32768, 4096]⟩ : Shape).Idx → EReal) (w : (⟨2, ![64, 4096]⟩ : Shape).Idx → EReal)
    (t : Fin 32768) (e : Fin 64) : logitsT x w (ix2 e t) = logits x w (ix2 t e) := by
  show ∑ k : Fin 4096, w (ix2 e k) * x (ix2 t k) = ∑ k : Fin 4096, x (ix2 t k) * w (ix2 e k)
  exact Finset.sum_congr rfl fun k _ => mul_comm _ _

end Cert.GateLogits

end
-- ==== Proof.Blocks.lean ====
/-
  The transposed logits table, block by block. Grid point t writes back, into columns 1280·t ‥ of the 64 × 32768 result,
  the product tile of the weight matrix with token rows 1280·t ‥: entry (e, r) of that tile is ∑ₖ w[e, k] · x[1280·t + r, k],
  which is entry (e, 1280·t + r) of the transposed logits table. The 26 blocks (the last cut to 768 columns) cover all
  32768 columns: column q lies in block q / 1280. So after the last write-back the result array holds the transposed
  logits table, and the transpose that follows the region turns it into the logits, tokens by experts.
-/
import proofs.«140568_g15161234555173_cont_week2b_154_25_alg».proof.Proof.Obligation
import proofs.«140568_g15161234555173_cont_week2b_154_25_alg».proof.Proof.Spec
import Idealize.ShloMosaic.Lib.Pipeline.Value
import Idealize.ShloMosaic.Lib.Pipeline.FrameSuffix
import Idealize.ShloMosaic.Lib.StableHlo.Run

set_option maxRecDepth 16384

noncomputable section

namespace Cert.KernelIdeal.Stream

open Cert.KernelIdeal Cert.KernelIdeal.Gen Cert.GateLogits
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The printed index maps and cuts, decided over the 26 grid points: the token tile is block (t, 0), the weight tile
    block (0, 0), the result tile block (0, t); the result tile keeps all 64 rows and, at the last point, 768 columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_2.xsize (grid0.coords t) (0 : Fin 2) = 64
    ∧ win0_2.xsize (grid0.coords t) (1 : Fin 2) = if t.val < 25 then 1280 else 768 :=
  (by decide +kernel : ∀ t : Fin grid0.N, _)

/-- A column the write-back at point t moves is a token of the array: 1280·t + r < 32768. -/
theorem token_lt (t : Fin cfg0.N) (r : Nat) (hr : r < win0_2.xsize (grid0.coords t) (1 : Fin 2)) : t.val * 1280 + r < 32768 := by
  obtain ⟨-, -, -, -, -, -, -, x1⟩ := idx_facts t
  have hN : t.val < 26 := lt_of_lt_of_eq t.isLt N_0
  rw [x1] at hr
  split at hr <;> omega

/-- A tile filled on its moved part reads the filling there. -/
theorem fill_apply_of_lt {sig : RefSig} {G : Pipeline.Grid} (w : Pipeline.Window sig G) {α : Type} (i : G.Coords)
    (d : w.block.Idx → α) (g : (w.xblock i).Idx → α) (y : w.block.Idx) (hy : ∀ a, (y a).val < w.xsize i a) :
    w.fill i d g y = g (fun a => ⟨(y a).val, hy a⟩) :=
  w.fill_xinj i d g (fun a => ⟨(y a).val, hy a⟩)

/-- The weight tile at point t is the weight matrix. -/
theorem weights_at (c : Dev nD) (t : Fin cfg0.N) (e : Fin 64) (k : Fin 4096) :
    iblk m c 1 t (ix2 e k) = V m c main_arg1 (ix2 e k) := by
  obtain ⟨-, -, e10, e11, -⟩ := idx_facts t
  show V m c main_arg1 (((cfg0.win 1).blk t).view.emb (ix2 e k)) = V m c main_arg1 (ix2 e k)
  refine congrArg _ (funext fun a => Fin.ext ?_)
  match a with
  | ⟨0, _⟩ => show win0_1.index t (0 : Fin 2) * 64 + 1 * e.val = e.val; omega
  | ⟨1, _⟩ => show win0_1.index t (1 : Fin 2) * 4096 + 1 * k.val = k.val; omega

/-- Row r of the token tile at point t, for a row the fetch filled, is token 1280·t + r. -/
theorem tokens_at (c : Dev nD) (t : Fin cfg0.N) (r : Fin 1280) (k : Fin 4096)
    (hr : r.val < win0_0.xsize (grid0.coords t) (0 : Fin 2)) (hq : t.val * 1280 + r.val < 32768) :
    tokens m c t (ix2 r k) = V m c main_arg0 (ix2 (⟨t.val * 1280 + r.val, hq⟩ : Fin 32768) k) := by
  obtain ⟨e00, e01, -⟩ := idx_facts t
  have hk : k.val < win0_0.xsize (grid0.coords t) (1 : Fin 2) := lt_of_lt_of_eq k.isLt (cols_whole (grid0.coords t)).symm
  unfold tokens
  rw [fill_apply_of_lt win0_0 (grid0.coords t) _ _ (ix2 r k) (fun a => by
    match a with
    | ⟨0, _⟩ => exact hr
    | ⟨1, _⟩ => exact hk)]
  show V m c main_arg0 (((cfg0.win 0).blk t).view.emb _) = V m c main_arg0 _
  refine congrArg _ (funext fun a => Fin.ext ?_)
  match a with
  | ⟨0, _⟩ => show win0_0.index t (0 : Fin 2) * 1280 + 1 * r.val = t.val * 1280 + r.val; omega
  | ⟨1, _⟩ => show win0_0.index t (1 : Fin 2) * 4096 + 1 * k.val = k.val; omega

/-- WHAT POINT t WRITES BACK is block t of the transposed logits table of the argument arrays. -/
theorem flushed_eq (c : Dev nD) (t : Fin cfg0.N) :
    (dats m 0 c).flushed 2 t
      = ((cfg0.win 2).blk t).view.read (Elt Ideal) (logitsT (V m c main_arg0) (V m c main_arg1)) := by
  show (cfg0.win 2).cut (grid0.coords t) ((dats m 0 c).after 2 t) = _
  rw [after_product]
  obtain ⟨-, -, -, -, e20, e21, -, -⟩ := idx_facts t
  funext j
  have h0 : (j 0).val < 64 := lt_of_lt_of_le (j 0).isLt (win0_2.xsize_le (grid0.coords t) 0)
  have h1 : (j 1).val < 1280 := lt_of_lt_of_le (j 1).isLt (win0_2.xsize_le (grid0.coords t) 1)
  have hq : t.val * 1280 + (j 1).val < 32768 := token_lt t _ (j 1).isLt
  have hj : win0_2.xinj (grid0.coords t) j = ix2 (⟨(j 0).val, h0⟩ : Fin 64) (⟨(j 1).val, h1⟩ : Fin 1280) :=
    funext fun a => by match a with | ⟨0, _⟩ => rfl | ⟨1, _⟩ => rfl
  have hemb : ((cfg0.win 2).blk t).view.emb j
      = ix2 (⟨(j 0).val, h0⟩ : Fin 64) (⟨t.val * 1280 + (j 1).val, hq⟩ : Fin 32768) := by
    funext a; apply Fin.ext
    match a with
    | ⟨0, _⟩ => show win0_2.index t (0 : Fin 2) * 64 + 1 * (j 0).val = (j 0).val; omega
    | ⟨1, _⟩ => show win0_2.index t (1 : Fin 2) * 1280 + 1 * (j 1).val = t.val * 1280 + (j 1).val; omega
  show k0_pay1 (F := Ideal) (iblk m c 1 t) (tokens m c t) (win0_2.xinj (grid0.coords t) j)
    = logitsT (V m c main_arg0) (V m c main_arg1) (((cfg0.win 2).blk t).view.emb j)
  rw [hj, hemb, Rows.product_apply, logitsT_apply]
  refine Finset.sum_congr rfl fun k _ => ?_
  rw [weights_at m c t _ k,
    tokens_at m c t ⟨(j 1).val, h1⟩ k (lt_of_lt_of_eq (j 1).isLt (rows_cut (grid0.coords t)).symm) hq]

/-- An index of the result array is in point t's block iff each coordinate is in the block's cut range. -/
theorem mem_blk (t : Fin cfg0.N) (i : S64x32768.Idx) :
    i ∈ ((cfg0.win 2).blk t).view.set ↔ ∀ a : Fin 2, win0_2.index t a * S64x1280.size a ≤ (i a).val
      ∧ (i a).val < win0_2.index t a * S64x1280.size a + win0_2.xsize (grid0.coords t) a := by
  show i ∈ ((View.whole main_v0).slice (win0_2.rect t)).set ↔ _
  rw [View.set_slice_whole, Rect.mem_set_unit]
  exact Iff.rfl

/-- Every column q of the result lies in the block of point q / 1280. -/
theorem cover (i : S64x32768.Idx) :
    ∃ t : Fin cfg0.N, (cfg0.win 2).flush t = true ∧ i ∈ ((cfg0.win 2).blk t).view.set := by
  have hi0 : (i 0).val < 64 := (i 0).isLt
  have hi1 : (i 1).val < 32768 := (i 1).isLt
  have hN : (i 1).val / 1280 < cfg0.N := lt_of_lt_of_eq (by omega : (i 1).val / 1280 < 26) N_0.symm
  refine ⟨⟨(i 1).val / 1280, hN⟩, flush0_2 _, ?_⟩
  rw [mem_blk]
  obtain ⟨-, -, -, -, e20, e21, x0, x1⟩ := idx_facts ⟨(i 1).val / 1280, hN⟩
  have e21' : win0_2.index ⟨(i 1).val / 1280, hN⟩ (1 : Fin 2) = (i 1).val / 1280 := e21
  have x1' : win0_2.xsize (grid0.coords ⟨(i 1).val / 1280, hN⟩) (1 : Fin 2) = if (i 1).val / 1280 < 25 then 1280 else 768 := x1
  intro a
  match a with
  | ⟨0, _⟩ =>
    show win0_2.index _ (0 : Fin 2) * 64 ≤ (i 0).val ∧ (i 0).val < win0_2.index _ (0 : Fin 2) * 64 + win0_2.xsize _ (0 : Fin 2)
    rw [e20, x0]; omega
  | ⟨1, _⟩ =>
    show win0_2.index _ (1 : Fin 2) * 1280 ≤ (i 1).val ∧ (i 1).val < win0_2.index _ (1 : Fin 2) * 1280 + win0_2.xsize _ (1 : Fin 2)
    rw [e21', x1']
    split <;> omega

/-- THE RESULT ARRAY after the last write-back is the transposed logits table. -/
theorem final (c : Dev nD) :
    (dats m 0 c).arrAt 2 cfg0.N = logitsT (V m c main_arg0) (V m c main_arg1) :=
  (dats m 0 c).arrAt_eq_of_cover 2 _ (fun t _ => flushed_eq m c t) cover

end Cert.KernelIdeal.Stream

end
-- ==== Proof.Whole.lean ====
/-
  The idealized kernel computes the gate logits. Every weakly fair execution of the program ends, each grid point keeping
  the proof data; the result array then holds the transposed logits table (experts by tokens), the one host line after
  the region transposes it, and the transposed table read at the swapped index is the logits table (commutativity of the
  product of extended reals, term by term). The two argument arrays are windows the kernel only reads: they end unchanged.
-/
import proofs.«140568_g15161234555173_cont_week2b_154_25_alg».proof.Proof.Blocks

set_option maxRecDepth 16384

noncomputable section

namespace Cert.KernelIdeal.Stream

open Cert.KernelIdeal Cert.KernelIdeal.Gen Cert.GateLogits
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- From any memory with zero counters every weakly fair execution of the program terminates; in every final state each
    array of the pipeline holds what the proof data compute after the last write-back, and every other buffer what the
    host line after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The transpose of the transposed logits table is the logits table. -/
theorem transpose_logitsT (x : S32768x4096.Idx → EReal) (w : S64x4096.Idx → EReal) :
    transpose S32768x64 [1, 0] (logitsT x w) transposes_S64x32768_S32768x64_1_0 = logits x w := by
  funext i
  rw [transpose_apply [1, 0] (logitsT x w) transposes_S64x32768_S32768x64_1_0 i (ix2 (i 1) (i 0)) (fun b => match b with
    | ⟨0, _⟩ => rfl
    | ⟨1, _⟩ => rfl)]
  show ∑ k : Fin 4096, w (ix2 (i 1) k) * x (ix2 (i 0) k) = ∑ k : Fin 4096, x (ix2 (i 0) k) * w (ix2 (i 1) k)
  exact Finset.sum_congr rfl fun k _ => mul_comm _ _

/-- What the host line after the region leaves in the program's result: the logits of the argument arrays. -/
theorem tail_value (c : Dev nD) :
    Pipeline.afterTail₀ cfgs (dats m) 0 (V0 m) [hostOps1] c main_v1
      = logits (m ((c : Thread nD τ).loc main_arg0)) (m ((c : Thread nD τ).loc main_arg1)) := by
  -- the region's result array, as the host line finds it, is the transposed logits table
  have hv0 : Pipeline.withArrays spec0 c (V0 m c) (fun w => (dats m 0 c).arrAt w cfg0.N) (Proc.devRef .tc main_v0)
      = logitsT (m ((c : Thread nD τ).loc main_arg0)) (m ((c : Thread nD τ).loc main_arg1)) :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v1) = _
  after_results
  exact (congrArg (fun z => transpose S32768x64 [1, 0] z transposes_S64x32768_S32768x64_1_0) hv0).trans
    (transpose_logitsT _ _)

/-- THE IDEALIZED KERNEL'S RUN: the result ends at the logits of the argument arrays, which end unchanged. -/
theorem kernel_run : θ_run defs (onTc (τ := τ) (main (F := Ideal))) ⟨m, fun _ => 0, ρ⟩ (fun r => ∀ c : Dev nD,
      r.2.mem ((c.tc : Thread nD τ).loc main_v1)
        = logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 (Pipeline.mem_restRefs_of main_v1 (by decide) (by decide))).trans (tail_value m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Stream

end
-- ==== Proof.RefProduct.lean ====
/-
  The reference computes the gate logits. It transposes the expert weights to 4096 × 64 and contracts the token matrix
  with them over the hidden axis: entry (t, e) is ∑ₖ x[t, k] · wᵀ[k, e] = ∑ₖ x[t, k] · w[e, k], the logit of token t for
  expert e.
-/
import proofs.«140568_g15161234555173_cont_week2b_154_25_alg».proof.Proof.Gen.ReferenceIdeal.Read
import proofs.«140568_g15161234555173_cont_week2b_154_25_alg».proof.Proof.Gen.ReferenceIdeal.Run
import proofs.«140568_g15161234555173_cont_week2b_154_25_alg».proof.Proof.Spec

noncomputable section

namespace Cert.ReferenceIdeal.RefValue

open Cert.ReferenceIdeal Cert.ReferenceIdeal.Gen
open Idealize.ShloMosaic Idealize.ShloMosaic.ValueIdx

/-- The reference's result, as a function of the token matrix x and the weights w, is the logits table. -/
theorem result_eq_logits (x : (⟨S32768x4096, .f32⟩ : BufTy).Contents (Elt Ideal)) (w : (⟨S64x4096, .f32⟩ : BufTy).Contents (Elt Ideal)) :
    Read.val_main_v1 (F := Ideal) x w = Cert.GateLogits.logits x w := by
  funext i
  rw [Read.val_main_v1_apply]
  show _ = ∑ k : Fin 4096, x (ix2 (i 0) k) * w (ix2 (i 1) k)
  refine Finset.sum_congr rfl fun k _ => ?_
  rw [Read.val_main_v0_apply]
  -- the token operand is read at (t, k), the transposed weights at (k, e), that is the weights at (e, k)
  have el : Read.lidx_main_v1 i k = ix2 (i 0) k :=
    funext fun a => by match a with | ⟨0, _⟩ => rfl | ⟨1, _⟩ => rfl
  have er : Read.idx_main_v0 (Read.ridx_main_v1 i k) = ix2 (i 1) k :=
    funext fun a => by match a with | ⟨0, _⟩ => rfl | ⟨1, _⟩ => rfl
  rw [el, er]
  rfl

end Cert.ReferenceIdeal.RefValue

end
-- ==== Proof.lean ====
/-
  The gate logits of a mixture-of-experts router: tokens x (32768 × 4096) against expert weights w (64 × 4096),
  logits[t, e] = ∑ₖ x[t, k] · w[e, k]. The kernel streams the tokens through a grid of 26 blocks of 1280 rows, multiplies
  each block by the resident weights into the transposed table (experts by tokens), and transposes at the end; the
  reference transposes the weights and contracts once. Over the extended reals the two are the same table: each entry
  is the same sum over the hidden axis, with the two factors of every term in the other order.

  The claims. The three programs run to the end and leave their arguments unchanged: the reference by its run read
  back; the idealized kernel by the run that also names its result; the word-level kernel by a run that names only the
  two input tiles (at word level a product tile is one opaque function of the whole token tile, whose last block hangs
  over the end of the token array, so nothing is said of the result there). The idealization rewrote nothing. And the
  idealized kernel and the idealized reference, from memories that agree on the arguments, end with equal results.
-/
import proofs.«140568_g15161234555173_cont_week2b_154_25_alg».proof.Defs
import proofs.«140568_g15161234555173_cont_week2b_154_25_alg».proof.Proof.Gen.Kernel
import proofs.«140568_g15161234555173_cont_week2b_154_25_alg».proof.Proof.Gen.KernelIdeal
import proofs.«140568_g15161234555173_cont_week2b_154_25_alg».proof.Proof.Gen.ReferenceIdeal
import proofs.«140568_g15161234555173_cont_week2b_154_25_alg».proof.Proof.Gen.Pre_finite_inputs
import proofs.«140568_g15161234555173_cont_week2b_154_25_alg».proof.Proof.BitsFrame
import proofs.«140568_g15161234555173_cont_week2b_154_25_alg».proof.Proof.Whole
import proofs.«140568_g15161234555173_cont_week2b_154_25_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Stream.frame (F := Bits) m ρ

/-- The idealized kernel runs and keeps its arguments. -/
theorem frame_kernel_ideal : Cert.frame_KernelIdeal := fun m ρ _ =>
  Cert.KernelIdeal.Gen.frame_of m ρ (Cert.KernelIdeal.Stream.dats m) (Cert.KernelIdeal.Stream.A_eq m)
    (Cert.KernelIdeal.Stream.run_main m ρ)

/-- The idealized reference runs and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the logits table of the (agreeing) arguments. -/
theorem algebraic : Cert.algebraic_KernelIdeal_ReferenceIdeal := by
  intro m ρ m' ρ' _ hagree
  refine ⟨_, Cert.KernelIdeal.Stream.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq_logits, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
